-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1 : Shape := ⟨2, ![16384, 1]⟩
abbrev S16384 : Shape := ⟨1, ![16384]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v15 : FVec F S16384 .f32) (main_cst_5 : FVec F S_ .f32) : IVec S_ 1 :=
  let main_v16 : FVec F S16384 .f32 := broadcastInDim S16384 ![] bcast_S_S16384 main_cst_5
  let main_v17 : IVec S16384 1 := cmpf .ogt main_v15 main_v16
  let main_c_6 : IVec S_ 1 := constantI S_ 1 1#1
  let main_v18 : IVec S_ 1 := (fun x v => Host.reduce IntOp.andi x v reducesTo_S16384_S_d0 h_S_) main_v17 main_c_6
  let main_v19 : IVec S_ 1 := andi main_v13 main_v18
  main_v19

def fn {F : FTy → Type} [FloatOps F] (main_arg0 : FVec F S16384x1 .f32) (main_arg1 : FVec F S16384 .f32) (main_arg2 : FVec F S16384 .f32) : IVec S_ 1 :=
  let main_v0 : FVec F S16384x1 .f32 := Host.absf main_arg0
  let main_cst : FVec F S_ .f32 := constant S_ .f32 0x7F800000#32
  let main_v1 : FVec F S16384x1 .f32 := broadcastInDim S16384x1 ![] bcast_S_S16384x1 main_cst
  let main_v2 : IVec S16384x1 1 := cmpf .olt main_v0 main_v1
  let main_c : IVec S_ 1 := constantI S_ 1 1#1
  let main_v3 : IVec S_ 1 := (fun x v => Host.reduce IntOp.andi x v reducesTo_S16384x1_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_cst_4 : FVec F S_ .f32 := constant S_ .f32 0x0A4FB11F#32
  let main_v14 : FVec F S16384 .f32 := broadcastInDim S16384 ![] bcast_S_S16384 main_cst_4
  let main_v15 : FVec F S16384 .f32 := addf main_arg1 main_v14
  let main_cst_5 : FVec F S_ .f32 := constant S_ .f32 0x00000000#32
  fn_part1 (F := F) main_v13 main_v15 main_cst_5
-- ==== Kernel.lean ====
abbrev S16384x1 : Shape := ⟨2, ![16384, 1]⟩
abbrev S16384 : Shape := ⟨1, ![16384]⟩
abbrev S_ : Shape := ⟨0, ![]⟩
abbrev S1x16384 : Shape := ⟨2, ![1, 16384]⟩
abbrev S16x1x1 : Shape := ⟨3, ![16, 1, 1]⟩
abbrev S1024x1 : Shape := ⟨2, ![1024, 1]⟩
abbrev S1x2048 : Shape := ⟨2, ![1, 2048]⟩
abbrev S1x1x1 : Shape := ⟨3, ![1, 1, 1]⟩
abbrev S1x1 : Shape := ⟨2, ![1, 1]⟩
abbrev S1x512 : Shape := ⟨2, ![1, 512]⟩
abbrev S1024x512 : Shape := ⟨2, ![1024, 512]⟩
abbrev S1024 : Shape := ⟨1, ![1024]⟩
abbrev S1 : Shape := ⟨1, ![1]⟩

abbrev nBuf : Space → Nat
  | .hbm => 34
  | .vmem => 9
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384, .f32⟩
  | .hbm, ⟨3, _⟩ => ⟨S16384x1, .f32⟩
  | .hbm, ⟨4, _⟩ => ⟨S_, .f32⟩
  | .hbm, ⟨5, _⟩ => ⟨S16384x1, .f32⟩
  | .hbm, ⟨6, _⟩ => ⟨S16384x1, .f32⟩
  | .hbm, ⟨7, _⟩ => ⟨S16384x1, .f32⟩
  | .hbm, ⟨8, _⟩ => ⟨S16384x1, .f32⟩
  | .hbm, ⟨9, _⟩ => ⟨S16384x1, .f32⟩
  | .hbm, ⟨10, _⟩ => ⟨S16384, .f32⟩
  | .hbm, ⟨11, _⟩ => ⟨S1x16384, .f32⟩
  | .hbm, ⟨12, _⟩ => ⟨S16384x1, .f32⟩
  | .hbm, ⟨13, _⟩ => ⟨S16x1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16384x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x2048, .f32⟩
  | .local _ .vmem, ⟨3, _⟩ => ⟨S1x2048, .f32⟩
  | .local _ .vmem, ⟨4, _⟩ => ⟨S1024x1, .f32⟩
  | .local _ .vmem, ⟨5, _⟩ => ⟨S1024x1, .f32⟩
  | .local _ .vmem, ⟨6, _⟩ => ⟨S1x1x1, .f32⟩
  | .local _ .vmem, ⟨7, _⟩ => ⟨S1x1x1, .f32⟩
  | .local _ .vmem, ⟨8, _⟩ => ⟨S1x1, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32_4 : BitVec 32 := 0#32
  let c4_i32 : BitVec 32 := 4#32
  let v8 : BitVec 32 := Scalar.addi c0_i32_4 c4_i32
  let c1_i32 : BitVec 32 := 1#32
  ⟨c0_i32_4, v8, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c512_i32 : BitVec 32 := 512#32
  let v21 : BitVec 32 := Scalar.muli arg7 c512_i32
  v21
def k0_off1 (k0_t1 : Fin k0_t1_loop.trips) : Fin 2 → Nat :=
  let c0_12 : Index := 0#32
  let c0_i32_4 : BitVec 32 := 0#32
  let c1_i32 : BitVec 32 := 1#32
  let arg7 : BitVec 32 := Scf.iv c0_i32_4 c1_i32 k0_t1
  let c512_i32 : BitVec 32 := 512#32
  let v21 : BitVec 32 := Scalar.muli arg7 c512_i32
  let v22 : BitVec 32 := v21
  let v23 : Index := Scalar.indexCast v22
  ![0, v23.toNat]
def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384 : S16384x1.ShapeCasts S16384
  shapeCasts_S16384_S1x16384 : S16384.ShapeCasts S1x16384
  shapeCasts_S16384_S16384x1 : S16384.ShapeCasts S16384x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x512 : 0 < S1x512.numel
  shapeCasts_S1x512_S1x512 : S1x512.ShapeCasts S1x512
  broadcasts_S1x512_S1024x512 : S1x512.Broadcasts S1024x512
  broadcasts_S1024x1_S1024x512 : S1024x1.Broadcasts S1024x512
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S16x1x1_S_d0_1_2 : S16x1x1.ReducesTo [0, 1, 2] S_
  h_S_ : 0 < S_.numel
  reducesTo_S16384x1_S_d0_1 : S16384x1.ReducesTo [0, 1] S_
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512.size a ≤ S1x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .f32 = 32 ∨ (Rect.block (s := S1x16384) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev win0_0 : Pipeline.Window sig grid0 :=
  Pipeline.Window.ofSpec (Memref.whole main_v5) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1 : Shape := ⟨2, ![16384, 1]⟩
abbrev S16384 : Shape := ⟨1, ![16384]⟩
abbrev S_ : Shape := ⟨0, ![]⟩
abbrev S1x16384 : Shape := ⟨2, ![1, 16384]⟩
abbrev S16384x16384 : Shape := ⟨2, ![16384, 16384]⟩

abbrev nBuf : Space → Nat
  | .hbm => 44
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384, .f32⟩
  | .hbm, ⟨3, _⟩ => ⟨S16384x1, .f32⟩
  | .hbm, ⟨4, _⟩ => ⟨S_, .f32⟩
  | .hbm, ⟨5, _⟩ => ⟨S16384x1, .f32⟩
  | .hbm, ⟨6, _⟩ => ⟨S16384x1, .f32⟩
  | .hbm, ⟨7, _⟩ => ⟨S16384x1, .f32⟩
  | .hbm, ⟨8, _⟩ => ⟨S16384x1, .f32⟩
  | .hbm, ⟨9, _⟩ => ⟨S16384x1, .f32⟩
  | .hbm, ⟨10, _⟩ => ⟨S16384, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .i1⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S16384x1, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16384x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S16384x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384 : S16384x1.ShapeCasts S16384
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_
  h_S_ : 0 < S_.numel
  reducesTo_S16384x1_S_d0_1 : S16384x1.ReducesTo [0, 1] S_

variable [Facts₀]

class Facts : Prop extends Facts₀ where

variable [Facts]
-- ==== Proof.Spec.lean ====
/-
  The rank loss, stated once over plain index types.

  With n = 16384, e : Fin n → EReal and v : Fin n → EReal, both programs compute

      (Σ_i Σ_j t(e_i, e_j) · v_i) · 2⁻²⁸ + 0.001 · (Σ e²) / n + 0.001 · (Σ log_h²) / n

  and differ only in the pairwise term t and in the order of the double sum.
  The kernel's term is the hinge max (e_j − e_i) 0; it sums it in blocks: 16 blocks of 1024 rows,
  8 blocks of 2048 columns, each column block in 4 chunks of 512, a row's chunk sums added up
  before the product with v_i. The reference's term is |d · [d ≤ 0]| with d = e_i − e_j, summed
  over all pairs at once. On real numbers the two terms agree and the blocked sum is a
  rearrangement of the plain one.

  The chain that makes e out of the inputs and the chain that adds the two penalties are the same
  operations in both programs; they are named here once (`eOf`, `tailOf`), with the shapes'
  side conditions as arguments, so that neither is ever opened.
-/
import Idealize.ShloMosaic.PureOps.Ideal
import Idealize.ShloMosaic.PureOps.Ideal.Laws
import Idealize.ShloMosaic.Lib.ValueIdx

noncomputable section

namespace Cert.RankLoss

open Idealize.ShloMosaic Idealize.ShloMosaic.ValueIdx
open scoped BigOperators

/-- The shapes of a column of n entries, a vector of n entries, and a scalar. -/
abbrev SCol : Shape := ⟨2, ![16384, 1]⟩
abbrev SVec : Shape := ⟨1, ![16384]⟩
abbrev SSc : Shape := ⟨0, ![]⟩

/-- Row p of row block I, as a position in the whole array. -/
def rowOf (I : Fin 16) (p : Fin 1024) : Fin 16384 := ⟨1024 * I.val + p.val, by omega⟩

/-- Column q of chunk k of column block J, as a position in the whole array. -/
def colOf (J : Fin 8) (k : Fin 4) (q : Fin 512) : Fin 16384 := ⟨2048 * J.val + 512 * k.val + q.val, by omega⟩

/-- The kernel's pairwise term for row value x = e_i and column value y = e_j: max (e_j − e_i) 0. -/
def hinge (x y : EReal) : EReal := max (y - x) 0

/-- The reference's pairwise term: |d · [d ≤ 0]| with d = e_i − e_j, the bracket 1 or 0. -/
def refTerm (x y : EReal) : EReal :=
  max ((x - y) * (((Ideal.cmp .ole (x - y) 0).toNat : ℝ) : EReal))
    (-((x - y) * (((Ideal.cmp .ole (x - y) 0).toNat : ℝ) : EReal)))

/-- What the kernel leaves in output slot I: over the 8 column blocks, the sum over the block's
    1024 rows of (the row's hinge sum over the column block, chunk by chunk) times the row's weight. -/
def slot (e v : Fin 16384 → EReal) (I : Fin 16) : EReal :=
  ∑ J : Fin 8, ∑ p : Fin 1024,
    (∑ k : Fin 4, ∑ q : Fin 512, hinge (e (rowOf I p)) (e (colOf J k q))) * v (rowOf I p)

/-- The kernel's pairwise total: the 16 slots added up. -/
def blockedTotal (e v : Fin 16384 → EReal) : EReal := ∑ I : Fin 16, slot e v I

/-- The reference's pairwise total: every pair, its term times the row's weight. -/
def pairTotal (e v : Fin 16384 → EReal) : EReal :=
  ∑ i : Fin 16384, ∑ j : Fin 16384, refTerm (e i) (e j) * v i

/-- e = −(log_h − log (durations + ε)) as a column, the operations both programs apply. -/
def eOf (hb : SVec.BroadcastsInDim SCol (![0] : Fin 1 → Fin SCol.rank))
    (hc : SSc.BroadcastsInDim SCol (![] : Fin 0 → Fin SCol.rank))
    (a : FVec Ideal SCol .f32) (d : FVec Ideal SVec .f32) : FVec Ideal SCol .f32 :=
  Host.negf (F := Ideal) (subf a (Host.log (F := Ideal) (addf (broadcastInDim SCol ![0] hb d)
    (broadcastInDim SCol ![] hc (constant (F := Ideal) SSc .f32 0x0A4FB11F#32)))))

/-- A host sum of all entries of an array starting from the zero word: the zero word plus the total. -/
def lossOf (T : EReal) : FVec Ideal SSc .f32 := fun _ => Ideal.ofBits .f32 0x00000000#32 + T

/-- The scalar tail both programs end with: L · 2⁻²⁸ + 0.001 · (Σ e²) / n + 0.001 · (Σ a²) / n. -/
def tailOf (hr : SCol.ReducesTo [0, 1] SSc) (h0 : 0 < SSc.numel) (e a : FVec Ideal SCol .f32)
    (L : FVec Ideal SSc .f32) : FVec Ideal SSc .f32 :=
  addf (addf (mulf L (constant (F := Ideal) SSc .f32 0x31800000#32))
      (Host.divf (F := Ideal) (mulf (constant (F := Ideal) SSc .f32 0x3A83126F#32)
        (Host.reduceAdd (F := Ideal) (mulf e e) (constant (F := Ideal) SSc .f32 0x00000000#32) hr h0))
        (constant (F := Ideal) SSc .f32 0x46800000#32)))
    (Host.divf (F := Ideal) (mulf (constant (F := Ideal) SSc .f32 0x3A83126F#32)
      (Host.reduceAdd (F := Ideal) (mulf a a) (constant (F := Ideal) SSc .f32 0x00000000#32) hr h0))
      (constant (F := Ideal) SSc .f32 0x46800000#32))

/-- A column and a vector read as functions of the position. -/
def eFlat (e : FVec Ideal SCol .f32) : Fin 16384 → EReal := fun i => e (ix2 i (0 : Fin 1))
def vFlat (v : FVec Ideal SVec .f32) : Fin 16384 → EReal := fun i => v (ix1 i)

end Cert.RankLoss

end
-- ==== Proof.PairAlgebra.lean ====
/-
  The blocked pairwise total equals the plain pairwise total on real entries.

  Two facts. (1) For real a, b the kernel's term max (b − a) 0 and the reference's term
  |d · [d ≤ 0]| with d = a − b are the same number: if d ≤ 0 the bracket is 1 and |d| = b − a ≥ 0;
  if d > 0 the bracket is 0, the product is 0, and b − a < 0 so the max is 0.
  (2) Every position i is uniquely 1024·I + p with I < 16, p < 1024, and every position j is
  uniquely 2048·J + 512·k + q with J < 8, k < 4, q < 512; so a sum over all positions is the
  nested sum over blocks. With all entries real, the weight v_i distributes over a row's inner
  sum, and the blocked sum becomes the plain double sum after exchanging the order of summation.
-/
import proofs.«169645_j7799660609714_2_alg».proof.Proof.Spec

noncomputable section

namespace Cert.RankLoss

open Idealize.ShloMosaic
open scoped BigOperators

/-! ### Reals inside the extended reals -/

/-- The inclusion of the reals commutes with max. -/
theorem coe_max_real (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The inclusion of the reals commutes with finite sums. -/
theorem coe_sum_real {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ### The two pairwise terms agree on reals -/

/-- On reals the kernel's term is max (b − a) 0. -/
theorem hinge_coe (a b : ℝ) : hinge (a : EReal) (b : EReal) = ((max (b - a) 0 : ℝ) : EReal) := by
  unfold hinge
  rw [coe_max_real, EReal.coe_sub, EReal.coe_zero]

/-- On reals the reference's term is max (b − a) 0 as well: with d = a − b, if d ≤ 0 the bracket
    is 1 and max d (−d) = −d = b − a ≥ 0; if d > 0 the bracket is 0 and both sides are 0. -/
theorem refTerm_coe (a b : ℝ) : refTerm (a : EReal) (b : EReal) = ((max (b - a) 0 : ℝ) : EReal) := by
  unfold refTerm Ideal.cmp
  simp only []
  rw [← EReal.coe_sub, ← EReal.coe_zero]
  by_cases h : a - b ≤ 0
  · have hd : decide (((a - b : ℝ) : EReal) ≤ ((0 : ℝ) : EReal)) = true :=
      decide_eq_true (EReal.coe_le_coe_iff.mpr h)
    rw [hd]
    have h1 : ((BitVec.ofBool true).toNat : ℝ) = 1 := by simp
    rw [h1, ← EReal.coe_mul, ← EReal.coe_neg, ← coe_max_real, mul_one]
    congr 1
    rw [max_eq_right (by linarith), max_eq_left (by linarith)]
    ring
  · have hd : decide (((a - b : ℝ) : EReal) ≤ ((0 : ℝ) : EReal)) = false :=
      decide_eq_false (fun hc => h (EReal.coe_le_coe_iff.mp hc))
    rw [hd]
    have h0 : ((BitVec.ofBool false).toNat : ℝ) = 0 := by simp
    rw [h0, ← EReal.coe_mul, ← EReal.coe_neg, ← coe_max_real, mul_zero, neg_zero, max_self]
    congr 1
    have h' : 0 < a - b := not_le.mp h
    rw [max_eq_right (by linarith)]

/-- The two terms agree on reals. -/
theorem hinge_eq_refTerm_coe (a b : ℝ) : hinge (a : EReal) (b : EReal) = refTerm (a : EReal) (b : EReal) := by
  rw [hinge_coe, refTerm_coe]

/-! ### Positions as (block, offset) -/

/-- A position i is row (i mod 1024) of row block (i div 1024), and only that. -/
def rowEquiv : Fin 16 × Fin 1024 ≃ Fin 16384 where
  toFun x := rowOf x.1 x.2
  invFun i := (⟨i.val / 1024, by omega⟩, ⟨i.val % 1024, by omega⟩)
  left_inv := by
    rintro ⟨I, p⟩
    simp only [rowOf]
    refine Prod.ext (Fin.ext ?_) (Fin.ext ?_)
    · show (1024 * I.val + p.val) / 1024 = I.val
      omega
    · show (1024 * I.val + p.val) % 1024 = p.val
      omega
  right_inv := by
    intro i
    simp only [rowOf]
    refine Fin.ext ?_
    show 1024 * (i.val / 1024) + i.val % 1024 = i.val
    omega

/-- A position j is column (j mod 512) of chunk ((j mod 2048) div 512) of column block
    (j div 2048), and only that. -/
def colEquiv : Fin 8 × Fin 4 × Fin 512 ≃ Fin 16384 where
  toFun x := colOf x.1 x.2.1 x.2.2
  invFun j := (⟨j.val / 2048, by omega⟩, ⟨j.val % 2048 / 512, by omega⟩, ⟨j.val % 512, by omega⟩)
  left_inv := by
    rintro ⟨J, k, q⟩
    simp only [colOf]
    refine Prod.ext (Fin.ext ?_) (Prod.ext (Fin.ext ?_) (Fin.ext ?_))
    · show (2048 * J.val + 512 * k.val + q.val) / 2048 = J.val
      omega
    · show (2048 * J.val + 512 * k.val + q.val) % 2048 / 512 = k.val
      omega
    · show (2048 * J.val + 512 * k.val + q.val) % 512 = q.val
      omega
  right_inv := by
    intro j
    simp only [colOf]
    refine Fin.ext ?_
    show 2048 * (j.val / 2048) + 512 * (j.val % 2048 / 512) + j.val % 512 = j.val
    omega

/-- A sum over all positions, taken row block by row block. -/
theorem sum_rows {M : Type*} [AddCommMonoid M] (F : Fin 16384 → M) :
    ∑ i, F i = ∑ I : Fin 16, ∑ p : Fin 1024, F (rowOf I p) := by
  rw [← Equiv.sum_comp rowEquiv F, Fintype.sum_prod_type]
  rfl

/-- A sum over all positions, taken column block by column block and chunk by chunk. -/
theorem sum_cols {M : Type*} [AddCommMonoid M] (G : Fin 16384 → M) :
    ∑ j, G j = ∑ J : Fin 8, ∑ k : Fin 4, ∑ q : Fin 512, G (colOf J k q) := by
  rw [← Equiv.sum_comp colEquiv G, Fintype.sum_prod_type]
  refine Finset.sum_congr rfl (fun J _ => ?_)
  rw [Fintype.sum_prod_type]
  rfl

/-! ### The two totals as real sums -/

/-- The blocked total of real entries is the inclusion of the same blocked sum of reals. -/
theorem blockedTotal_coe (E V : Fin 16384 → ℝ) :
    blockedTotal (fun i => ((E i : ℝ) : EReal)) (fun i => ((V i : ℝ) : EReal))
      = ((∑ I : Fin 16, ∑ J : Fin 8, ∑ p : Fin 1024,
          (∑ k : Fin 4, ∑ q : Fin 512, max (E (colOf J k q) - E (rowOf I p)) 0)
            * V (rowOf I p) : ℝ) : EReal) := by
  unfold blockedTotal slot
  simp only [hinge_coe, coe_sum_real, EReal.coe_mul]

/-- The plain total of real entries is the inclusion of the same double sum of reals. -/
theorem pairTotal_coe (E V : Fin 16384 → ℝ) :
    pairTotal (fun i => ((E i : ℝ) : EReal)) (fun i => ((V i : ℝ) : EReal))
      = ((∑ i : Fin 16384, ∑ j : Fin 16384, max (E j - E i) 0 * V i : ℝ) : EReal) := by
  unfold pairTotal
  simp only [refTerm_coe, coe_sum_real, EReal.coe_mul]

/-- In the reals: the blocked sum is the plain double sum. Rows are split into 16 blocks of 1024,
    the sums over column blocks and rows of a block are exchanged, the weight is distributed
    over the chunk sums, and the columns are reassembled from 8 blocks of 4 chunks of 512. -/
theorem blocked_eq_pair_real (E V : Fin 16384 → ℝ) :
    (∑ I : Fin 16, ∑ J : Fin 8, ∑ p : Fin 1024,
        (∑ k : Fin 4, ∑ q : Fin 512, max (E (colOf J k q) - E (rowOf I p)) 0) * V (rowOf I p))
      = ∑ i : Fin 16384, ∑ j : Fin 16384, max (E j - E i) 0 * V i := by
  rw [sum_rows (fun i => ∑ j : Fin 16384, max (E j - E i) 0 * V i)]
  refine Finset.sum_congr rfl (fun I _ => ?_)
  rw [Finset.sum_comm]
  refine Finset.sum_congr rfl (fun p _ => ?_)
  rw [sum_cols (fun j => max (E j - E (rowOf I p)) 0 * V (rowOf I p))]
  refine Finset.sum_congr rfl (fun J _ => ?_)
  rw [Finset.sum_mul]
  refine Finset.sum_congr rfl (fun k _ => ?_)
  rw [Finset.sum_mul]

/-- On real entries the kernel's blocked pairwise total is the reference's pairwise total. -/
theorem blockedTotal_eq_pairTotal (E V : Fin 16384 → ℝ) :
    blockedTotal (fun i => ((E i : ℝ) : EReal)) (fun i => ((V i : ℝ) : EReal))
      = pairTotal (fun i => ((E i : ℝ) : EReal)) (fun i => ((V i : ℝ) : EReal)) := by
  rw [blockedTotal_coe, pairTotal_coe, blocked_eq_pair_real]

end Cert.RankLoss

end
-- ==== Proof.RefValue.lean ====
/-
  The reference program's value as the shared tail of the plain pairwise total.

  The reference forms e = −(log_h − log (durations + ε)) as a column, spreads it over an n×n array
  by rows and by columns, takes d = e_i − e_j, multiplies d by the bracket [d ≤ 0] read as 1 or 0,
  takes the absolute value, multiplies by the row's weight v_i, and adds all n² entries to the zero
  word. A sum over every axis is the initial value plus the sum over all indices, and a sum over a
  rank-2 index set is the double sum over the two coordinates; so the total is
  the zero word + Σ_i Σ_j refTerm (e_i) (e_j) · v_i. The remaining operations are the scalar tail.
-/
import proofs.«169645_j7799660609714_2_alg».proof.Proof.Spec
import proofs.«169645_j7799660609714_2_alg».proof.Proof.Gen.ReferenceIdeal.Read

noncomputable section

namespace Cert.RankLoss.Ref

open Cert.ReferenceIdeal Cert.ReferenceIdeal.Gen Cert.ReferenceIdeal.Read
open Idealize.ShloMosaic Idealize.ShloMosaic.ValueIdx
open scoped BigOperators

/-- The column e the reference builds is the shared chain `eOf` of its first two arguments. -/
theorem e_eq (x0 : FVec Ideal SCol .f32) (x1 : FVec Ideal SVec .f32) :
    val_main_v5 (F := Ideal) x0 x1 = eOf bcast_S16384_S16384x1_0 bcast_S_S16384x1 x0 x1 := by
  unfold val_main_v5 val_main_v4 val_main_v3 val_main_v2 val_main_v1 val_main_v0 val_main_cst eOf
  rfl

/-- The operations after the pairwise sum are the shared scalar tail of e, log_h and that sum. -/
theorem tail_eq (x0 : FVec Ideal SCol .f32) (x1 x2 : FVec Ideal SVec .f32) :
    val_main_v30 (F := Ideal) x0 x1 x2
      = tailOf reducesTo_S16384x1_S_d0_1 h_S_ (val_main_v5 (F := Ideal) x0 x1) x0
          (val_main_v19 (F := Ideal) x0 x1 x2) := by
  unfold val_main_v30 val_main_v29 val_main_v28 val_main_v27 val_main_v26 val_main_v25 val_main_v24
    val_main_v23 val_main_v22 val_main_v21 val_main_v20 val_main_cst_2 val_main_cst_3 val_main_cst_4
    val_main_cst_5 val_main_cst_6 val_main_cst_7 val_main_cst_8 tailOf
  rfl

/-- Row i of the column spread along the rows is read at (i, 0). -/
theorem idx_row (a b : Fin 16384) : idx_main_v8 (ix2 a b) = ix2 a (0 : Fin 1) :=
  funext fun d => Fin.ext (by match d with | ⟨0, _⟩ => rfl | ⟨1, _⟩ => rfl)

/-- Column j of the column reshaped to a row and spread along the columns is read at (j, 0). -/
theorem idx_col (a b : Fin 16384) :
    idx_main_v6 (idx_main_v7 (idx_main_v9 (ix2 a b))) = ix2 b (0 : Fin 1) :=
  funext fun d => Fin.ext (by
    match d with
    | ⟨0, _⟩ => show b.val / 1 = b.val; exact Nat.div_one _
    | ⟨1, _⟩ => rfl)

/-- The weight spread along the rows is read at i. -/
theorem idx_wt (a b : Fin 16384) : idx_main_v16 (idx_main_v17 (ix2 a b)) = ix1 a :=
  funext fun d => Fin.ext (by match d with | ⟨0, _⟩ => rfl)

/-- Entry (i, j) of the n×n array the reference sums: refTerm (e_i) (e_j) · v_i. -/
theorem entry (x0 : FVec Ideal SCol .f32) (x1 x2 : FVec Ideal SVec .f32) (a b : Fin 16384) :
    val_main_v18 (F := Ideal) x0 x1 x2 (ix2 a b)
      = refTerm (eFlat (val_main_v5 (F := Ideal) x0 x1) a) (eFlat (val_main_v5 (F := Ideal) x0 x1) b)
          * vFlat x2 a := by
  rw [val_main_v18_apply, val_main_v15_apply, val_main_v14_apply, val_main_v13_apply,
    val_main_v12_apply, val_main_v10_apply, val_main_v8_apply, val_main_v9_apply, val_main_v7_apply,
    val_main_v6_apply, val_main_v11_apply, val_main_cst_0_apply, val_main_v17_apply,
    val_main_v16_apply, idx_row, idx_col, idx_wt]
  generalize val_main_v5 (F := Ideal) x0 x1 = e
  simp only [Ideal.ofBits_def, Ideal.ofBits_zero_f32]
  rfl

/-- The reference's pairwise sum: the zero word plus the plain double sum. -/
theorem total_eq (x0 : FVec Ideal SCol .f32) (x1 x2 : FVec Ideal SVec .f32) :
    val_main_v19 (F := Ideal) x0 x1 x2
      = lossOf (pairTotal (eFlat (val_main_v5 (F := Ideal) x0 x1)) (vFlat x2)) := by
  funext i
  rw [val_main_v19_apply, val_main_cst_1_apply, sum_idx2]
  unfold lossOf pairTotal
  refine congrArg (fun t => FloatOps.ofBits (F := Ideal) .f32 0x00000000#32 + t) ?_
  refine Finset.sum_congr rfl fun a _ => Finset.sum_congr rfl fun b _ => ?_
  exact entry x0 x1 x2 a b

/-- The reference's result: the shared tail of the plain pairwise total of e and the weights. -/
theorem ref_value (x0 : FVec Ideal SCol .f32) (x1 x2 : FVec Ideal SVec .f32) :
    Cert.ReferenceIdeal.Read.val_main_v30 (F := Ideal) x0 x1 x2
      = tailOf reducesTo_S16384x1_S_d0_1 h_S_ (eOf bcast_S16384_S16384x1_0 bcast_S_S16384x1 x0 x1) x0
          (lossOf (pairTotal (eFlat (eOf bcast_S16384_S16384x1_0 bcast_S_S16384x1 x0 x1)) (vFlat x2))) := by
  rw [tail_eq, total_eq, e_eq]

end Cert.RankLoss.Ref

end
-- ==== Proof.PreReal.lean ====
/-
  What the precondition gives: every entry of e and of the weights is a real number.

  The precondition says |log_h_i| < +∞, |durations_i| < +∞, |events_i| < +∞ for every i, each as an
  "and" over all entries, and durations_i + ε > 0 for every i, ε the value of the word 0x0A4FB11F.
  An extended real whose absolute value is below +∞ is a real; ε is a real (its exponent field is not
  all ones). So durations_i + ε is a positive real, its logarithm a real, and
  e_i = −(log_h_i − log (durations_i + ε)) is a real.
-/
import proofs.«169645_j7799660609714_2_alg».proof.Proof.Spec
import proofs.«169645_j7799660609714_2_alg».proof.Pre_finite_inputs
import Idealize.ShloMosaic.Lib.ReduceAll
import Idealize.ShloMosaic.Lib.Pipeline.Value

noncomputable section

namespace Cert.RankLoss.Pre

open Idealize.ShloMosaic Idealize.ShloMosaic.ValueIdx

/-- The scalar shape has one index. -/
instance : Subsingleton SSc.Idx := ⟨fun a b => funext fun d => d.elim0⟩

/-- The word 0x7F800000 denotes +∞. -/
theorem inf_word : Ideal.ofBits .f32 0x7F800000#32 = ⊤ := by simp [Ideal.ofBits, Ideal.ieee]

/-- The word 0x0A4FB11F (ε) denotes a real number. -/
theorem eps_real : ∃ r : ℝ, Ideal.ofBits .f32 0x0A4FB11F#32 = (r : EReal) := by
  unfold Ideal.ofBits Ideal.ieee
  dsimp only
  rw [if_neg (by decide)]
  split <;> exact ⟨_, rfl⟩

/-- An extended real whose absolute value is below +∞ is a real number. -/
theorem real_of_abs_lt (x : EReal)
    (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- A comparison "greater than" that holds says the order relation. -/
theorem lt_of_ogt (x y : EReal) (h : Ideal.cmp .ogt x y = 1#1) : y < x := by
  by_contra hn
  simp [Ideal.cmp, hn] at h

/-- A scalar constant spread over any shape reads the constant's value everywhere. -/
theorem bcast_scalar_apply {t : Shape} (hc : SSc.BroadcastsInDim t (![] : Fin 0 → Fin t.rank)) (w : BitVec 32)
    (j : t.Idx) : broadcastInDim t ![] hc (constant (F := Ideal) SSc .f32 w) j = Ideal.ofBits .f32 w :=
  (broadcastInDim_apply _ hc _ j ix0 (fun a => a.elim0)).trans rfl

/-- A vector spread along the rows of a column reads its entry at the row. -/
theorem bcast_col_apply (hb : SVec.BroadcastsInDim SCol (![0] : Fin 1 → Fin SCol.rank)) (d : FVec Ideal SVec .f32)
    (i : Fin 16384) : broadcastInDim SCol ![0] hb d (ix2 i (0 : Fin 1)) = d (ix1 i) :=
  broadcastInDim_apply _ hb d (ix2 i (0 : Fin 1)) (ix1 i) (fun a => match a with
    | ⟨0, _⟩ => by show i.val = if (16384 : Nat) = 1 then 0 else i.val; rw [if_neg (by decide)])

/-- Entry i of e: −(log_h_i − log (durations_i + ε)). -/
theorem eOf_apply (hb : SVec.BroadcastsInDim SCol (![0] : Fin 1 → Fin SCol.rank))
    (hc : SSc.BroadcastsInDim SCol (![] : Fin 0 → Fin SCol.rank))
    (a : FVec Ideal SCol .f32) (d : FVec Ideal SVec .f32) (i : Fin 16384) :
    eFlat (eOf hb hc a d) i
      = -(a (ix2 i (0 : Fin 1)) - Ideal.log (d (ix1 i) + Ideal.ofBits .f32 0x0A4FB11F#32)) := by
  rw [← bcast_col_apply hb d i, ← bcast_scalar_apply hc 0x0A4FB11F#32 (ix2 i (0 : Fin 1))]
  rfl

/-- Under the precondition every e_i and every weight v_i is a real number. -/
theorem real_of_pre [Cert.Pre_finite_inputs.Facts] (a : FVec Ideal SCol .f32) (d v : FVec Ideal SVec .f32)
    (h : Cert.Pre_finite_inputs.fn (F := Ideal) a d v = fun _ => 1#1)
    (hb : SVec.BroadcastsInDim SCol (![0] : Fin 1 → Fin SCol.rank)) (hc : SSc.BroadcastsInDim SCol (![] : Fin 0 → Fin SCol.rank)) :
    (∀ i : Fin 16384, ∃ r : ℝ, eFlat (eOf hb hc a d) i = (r : EReal)) ∧ (∀ i : Fin 16384, ∃ r : ℝ, vFlat v i = (r : EReal)) := by
  have e := congrFun h ix0
  unfold Cert.Pre_finite_inputs.fn Cert.Pre_finite_inputs.fn_part1 at e
  dsimp only at e
  change IntOp.andi (IntOp.andi (IntOp.andi _ _) _) _ = 1#1 at e
  rw [IntOp.andi_eq_one, IntOp.andi_eq_one, IntOp.andi_eq_one] at e
  obtain ⟨⟨⟨ha, hd⟩, hv⟩, hp⟩ := e
  have Ha : ∀ i : SCol.Idx, ∃ r : ℝ, a i = (r : EReal) := fun i => real_of_abs_lt (a i) (by
    have t := Host.reduce_andi_all _ _ _ _ _ ha i
    rw [cmpf_apply, bcast_scalar_apply] at t
    exact t)
  have Hd : ∀ i : SVec.Idx, ∃ r : ℝ, d i = (r : EReal) := fun i => real_of_abs_lt (d i) (by
    have t := Host.reduce_andi_all _ _ _ _ _ hd i
    rw [cmpf_apply, bcast_scalar_apply] at t
    exact t)
  have Hv : ∀ i : SVec.Idx, ∃ r : ℝ, v i = (r : EReal) := fun i => real_of_abs_lt (v i) (by
    have t := Host.reduce_andi_all _ _ _ _ _ hv i
    rw [cmpf_apply, bcast_scalar_apply] at t
    exact t)
  have Hp : ∀ i : SVec.Idx, Ideal.ofBits .f32 0x00000000#32 < d i + Ideal.ofBits .f32 0x0A4FB11F#32 := fun i => by
    have t := Host.reduce_andi_all _ _ _ _ _ hp i
    rw [cmpf_apply, bcast_scalar_apply, addf_apply, bcast_scalar_apply] at t
    exact lt_of_ogt _ _ t
  refine ⟨fun i => ?_, fun i => Hv (ix1 i)⟩
  rw [eOf_apply]
  obtain ⟨α, hα⟩ := Ha (ix2 i (0 : Fin 1))
  obtain ⟨δ, hδ⟩ := Hd (ix1 i)
  obtain ⟨ε, hε⟩ := eps_real
  have hpos := Hp (ix1 i)
  rw [Ideal.ofBits_zero_f32, hδ, hε, ← EReal.coe_add, EReal.coe_pos] at hpos
  rw [hα, hδ, hε, ← EReal.coe_add, Ideal.log_coe, if_neg (not_le.mpr hpos), ← EReal.coe_sub, ← EReal.coe_neg]
  exact ⟨_, rfl⟩

end Cert.RankLoss.Pre

end
-- ==== Proof.KPieces.lean ====
/-
  What one grid point of the kernel leaves behind, as terms of the body's arithmetic.

  At a point the body holds a block of 1024 row values, a block of 2048 column values and the
  1024 row weights. It walks the column block in 4 chunks of 512: starting from the zero column,
  each chunk adds to every row its sum of max (column − row) 0 over the chunk. The four-step
  recursion is `rowSums`. The point's contribution is then the sum over rows of row sum times
  weight, added to the scalar the points of one row block carry along: the carried scalar starts
  from zero at the block's first point, and is copied to the output at its last point.
-/
import proofs.«169645_j7799660609714_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Chunk k of a column block: its 512 values from column 512·k on. -/
def chunk (x1 : Vec F S1x2048 .f32) (k : Fin k0_t1_loop.trips) : Vec F S1x512 .f32 :=
  View.ld x1 (Rect.unit (s := S1x2048) (k0_off1 k) S1x512.size (k0_off1_inb k))

/-- One trip of the chunk loop: the carried column plus the chunk's row sums. -/
theorem trip_eq (𝒱 : Variants) (bd : Option 𝒱.V) (c : Dev nD) (i : grid0.Coords) (a2 : Memref sig .tc .vmem S1024x1 .f32) (h2 : a2.IsWhole) (a3 : Memref sig .tc .vmem S1x2048 .f32) (h3 : a3.IsWhole) (a4 : Memref sig .tc .vmem S1024x1 .f32) (h4 : a4.IsWhole) (a5 : Memref sig .tc .vmem S1x1x1 .f32) (h5 : a5.IsWhole) (a6 : Memref sig .tc .vmem S1x1 .f32) (h6 : a6.IsWhole)
    (v3 : Vec F S1024x1 .f32) (x1 : Vec F S1x2048 .f32) (k : Fin k0_t1_loop.trips) (acc : FVec F S1024x1 .f32) :
    tripR_k0_t1 (F := F) 𝒱 c bd i a2 h2 a3 h3 a4 h4 a5 h5 a6 h6 v3 (h3.unread x1) k acc = k0_pay3 v3 acc (chunk x1 k) := by
  unfold tripR_k0_t1 trip_k0_t1
  dsimp only
  rw [View.readAt_eq_ld, h3.read_unread]
  rfl

/-- The carried column before trip n: zero, then one chunk's row sums added per trip. -/
def rowSums (v3 : Vec F S1024x1 .f32) (x1 : Vec F S1x2048 .f32) : ℕ → FVec F S1024x1 .f32
  | 0 => k0_pay2
  | n + 1 => if h : n < k0_t1_loop.trips then k0_pay3 v3 (rowSums v3 x1 n) (chunk x1 ⟨n, h⟩) else rowSums v3 x1 n

/-- The loop's state is that recursion. -/
theorem st_eq (𝒱 : Variants) (bd : Option 𝒱.V) (c : Dev nD) (i : grid0.Coords) (a2 : Memref sig .tc .vmem S1024x1 .f32) (h2 : a2.IsWhole) (a3 : Memref sig .tc .vmem S1x2048 .f32) (h3 : a3.IsWhole) (a4 : Memref sig .tc .vmem S1024x1 .f32) (h4 : a4.IsWhole) (a5 : Memref sig .tc .vmem S1x1x1 .f32) (h5 : a5.IsWhole) (a6 : Memref sig .tc .vmem S1x1 .f32) (h6 : a6.IsWhole)
    (v3 : Vec F S1024x1 .f32) (x1 : Vec F S1x2048 .f32) : ∀ n : ℕ,
    st_k0_t1 (F := F) 𝒱 c bd i a2 h2 a3 h3 a4 h4 a5 h5 a6 h6 v3 (h3.unread x1) k0_pay2 n = rowSums v3 x1 n
  | 0 => rfl
  | n + 1 => by
    rw [st_k0_t1.eq_2, st_eq 𝒱 bd c i a2 h2 a3 h3 a4 h4 a5 h5 a6 h6 v3 x1 n]
    unfold st_k0_t1Step
    rw [rowSums]
    by_cases h : n < k0_t1_loop.trips
    · rw [dif_pos h, dif_pos h, trip_eq]
    · rw [dif_neg h, dif_neg h]

/-- A middle point of a row block: the carried scalar plus this point's contribution. -/
theorem sout_B (c : Dev nD) (i : grid0.Coords) (a2 : Memref sig .tc .vmem S1024x1 .f32) (h2 : a2.IsWhole) (a3 : Memref sig .tc .vmem S1x2048 .f32) (h3 : a3.IsWhole) (a4 : Memref sig .tc .vmem S1024x1 .f32) (h4 : a4.IsWhole) (a5 : Memref sig .tc .vmem S1x1x1 .f32) (h5 : a5.IsWhole) (a6 : Memref sig .tc .vmem S1x1 .f32) (h6 : a6.IsWhole) (hc0 : ¬cond0_0 i) (hc1 : ¬cond0_1 i)
    (x0 : Vec F S1024x1 .f32) (x1 : Vec F S1x2048 .f32) (x2 : Vec F S1024x1 .f32) (xs0 : Vec F S1x1 .f32) :
    sout0_B_0 c i a2 h2 a3 h3 a4 h4 a5 h5 a6 h6 hc0 hc1 x0 x1 x2 xs0 = k0_pay4 x2 (rowSums x0 x1 k0_t1_loop.trips) xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz2]
  simp only [View.readAt_eq_ld, h2.read_unread, h4.read_unread, h6.read_unread, View.ld_unit_zero (S := S1024x1) hz2, View.ld_unit_zero (S := S1x1) hz2]
  rw [st_eq]

/-- The last point of a row block leaves the same in the carried scalar … -/
theorem sout_C (c : Dev nD) (i : grid0.Coords) (a2 : Memref sig .tc .vmem S1024x1 .f32) (h2 : a2.IsWhole) (a3 : Memref sig .tc .vmem S1x2048 .f32) (h3 : a3.IsWhole) (a4 : Memref sig .tc .vmem S1024x1 .f32) (h4 : a4.IsWhole) (a5 : Memref sig .tc .vmem S1x1x1 .f32) (h5 : a5.IsWhole) (a6 : Memref sig .tc .vmem S1x1 .f32) (h6 : a6.IsWhole) (hc0 : ¬cond0_0 i) (hc1 : cond0_1 i)
    (x0 : Vec F S1024x1 .f32) (x1 : Vec F S1x2048 .f32) (x2 : Vec F S1024x1 .f32) (xs0 : Vec F S1x1 .f32) :
    sout0_C_0 c i a2 h2 a3 h3 a4 h4 a5 h5 a6 h6 hc0 hc1 x0 x1 x2 xs0 = k0_pay4 x2 (rowSums x0 x1 k0_t1_loop.trips) xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz2]
  simp only [View.readAt_eq_ld, h2.read_unread, h4.read_unread, h6.read_unread, View.ld_unit_zero (S := S1024x1) hz2, View.ld_unit_zero (S := S1x1) hz2]
  rw [st_eq]

/-- … and copies it, recast to the output's shape, into the output slot. -/
theorem out_C (c : Dev nD) (i : grid0.Coords) (a2 : Memref sig .tc .vmem S1024x1 .f32) (h2 : a2.IsWhole) (a3 : Memref sig .tc .vmem S1x2048 .f32) (h3 : a3.IsWhole) (a4 : Memref sig .tc .vmem S1024x1 .f32) (h4 : a4.IsWhole) (a5 : Memref sig .tc .vmem S1x1x1 .f32) (h5 : a5.IsWhole) (a6 : Memref sig .tc .vmem S1x1 .f32) (h6 : a6.IsWhole) (hc0 : ¬cond0_0 i) (hc1 : cond0_1 i)
    (x0 : Vec F S1024x1 .f32) (x1 : Vec F S1x2048 .f32) (x2 : Vec F S1024x1 .f32) (xs0 : Vec F S1x1 .f32) :
    out0_C_3 c i a2 h2 a3 h3 a4 h4 a5 h5 a6 h6 hc0 hc1 x0 x1 x2 xs0 = k0_pay5 (k0_pay4 x2 (rowSums x0 x1 k0_t1_loop.trips) xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3, View.readCov_unit_zero (S := S1x1) _ hz2]
  simp only [View.readAt_eq_ld, h2.read_unread, h4.read_unread, h6.read_unread, View.ld_unit_zero (S := S1024x1) hz2, View.ld_unit_zero (S := S1x1) hz2]
  rw [st_eq]

/-- The first point of a row block starts the carried scalar from the zero it has just stored. -/
theorem sout_A (c : Dev nD) (i : grid0.Coords) (a2 : Memref sig .tc .vmem S1024x1 .f32) (h2 : a2.IsWhole) (a3 : Memref sig .tc .vmem S1x2048 .f32) (h3 : a3.IsWhole) (a4 : Memref sig .tc .vmem S1024x1 .f32) (h4 : a4.IsWhole) (a5 : Memref sig .tc .vmem S1x1x1 .f32) (h5 : a5.IsWhole) (a6 : Memref sig .tc .vmem S1x1 .f32) (h6 : a6.IsWhole) (hc0 : cond0_0 i) (hc1 : ¬cond0_1 i)
    (x0 : Vec F S1024x1 .f32) (x1 : Vec F S1x2048 .f32) (x2 : Vec F S1024x1 .f32) :
    sout0_A_0 c i a2 h2 a3 h3 a4 h4 a5 h5 a6 h6 hc0 hc1 x0 x1 x2 = k0_pay4 x2 (rowSums x0 x1 k0_t1_loop.trips) k0_pay1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz2, View.readCov_unit_zero (S := S1x1) _ hz2]
  simp only [View.readAt_eq_ld, h2.read_unread, h4.read_unread, View.ld_unit_zero (S := S1024x1) hz2]
  rw [st_eq]

end Cert.KernelIdeal.KValue

end
-- ==== Proof.KCarry.lean ====
/-
  The scalar the points of one row block carry along, point by point.

  The first point of a row block leaves zero plus its contribution; every later point leaves what
  the point before left plus its own contribution; the last point also copies that into the output.
-/
import proofs.«169645_j7799660609714_2_alg».proof.Proof.Gen.KernelIdeal.Frame
import proofs.«169645_j7799660609714_2_alg».proof.Proof.KPieces
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

variable (m : (ℓ : Loc nD τ sig) → Buf (Elt F) ℓ)

/-- The row sums of point t: its row block against its column block. -/
def rs (c : Dev nD) (t : Fin cfg0.N) : FVec F S1024x1 .f32 :=
  rowSums (iblk m c 0 t) (iblk m c 1 t) k0_t1_loop.trips

/-- What the point before t left in the carried scalar. -/
def prev (c : Dev nD) (t : Fin cfg0.N) : Vec F S1x1 .f32 :=
  (outsAt0 m c (t.val - 1) (Nat.lt_of_le_of_lt (Nat.sub_le _ _) t.isLt)).2

theorem carry_A (c : Dev nD) (t : Fin cfg0.N) (h0 : t.val % 8 = 0) (h1 : ¬t.val % 8 = 7) :
    (outsAt0 m c t.val t.isLt).2 = k0_pay4 (iblk m c 2 t) (rs m c t) k0_pay1 := by
  rw [outsAt0_A m c t h0 h1]
  exact sout_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

theorem carry_B (c : Dev nD) (t : Fin cfg0.N) (h0 : ¬t.val % 8 = 0) (h1 : ¬t.val % 8 = 7) :
    (outsAt0 m c t.val t.isLt).2 = k0_pay4 (iblk m c 2 t) (rs m c t) (prev m c t) := by
  rw [outsAt0_B m c t h0 h1]
  exact sout_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (prev m c t)

theorem carry_C (c : Dev nD) (t : Fin cfg0.N) (h0 : ¬t.val % 8 = 0) (h1 : t.val % 8 = 7) :
    (outsAt0 m c t.val t.isLt).2 = k0_pay4 (iblk m c 2 t) (rs m c t) (prev m c t) := by
  rw [outsAt0_C m c t h0 h1]
  exact sout_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (prev m c t)

theorem outp_C (c : Dev nD) (t : Fin cfg0.N) (h0 : ¬t.val % 8 = 0) (h1 : t.val % 8 = 7) :
    (outsAt0 m c t.val t.isLt).1 = k0_pay5 (k0_pay4 (iblk m c 2 t) (rs m c t) (prev m c t)) := by
  rw [outsAt0_C m c t h0 h1]
  exact out_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (prev m c t)

end Cert.KernelIdeal.KValue

end
-- ==== Proof.KBlocks.lean ====
/-
  The arrays the kernel's windows read, and the block of each at a grid point.

  Before the kernel starts, the program has formed the column e (from log_h and durations), its
  copy laid out as one row, and the weights as a column. Point t of the 16 × 8 grid belongs to row
  block I = t / 8 and column block J = t % 8: it is handed rows 1024·I … 1024·I + 1023 of e and of
  the weights, and columns 2048·J … 2048·J + 2047 of the row copy of e.
-/
import proofs.«169645_j7799660609714_2_alg».proof.Proof.Gen.KernelIdeal.Frame
import proofs.«169645_j7799660609714_2_alg».proof.Proof.Spec
import Idealize.ShloMosaic.Lib.StableHlo.Run
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

open Cert.RankLoss Idealize.ShloMosaic.ValueIdx

variable (m : (ℓ : Loc nD τ sig) → Buf (Elt Ideal) ℓ)

/-- The column e as the kernel's program forms it from its first two arguments. -/
def eCol (c : Dev nD) : FVec Ideal SCol .f32 :=
  eOf bcast_S16384_S16384x1_0 bcast_S_S16384x1 (m ((c : Thread nD τ).loc main_arg0)) (m ((c : Thread nD τ).loc main_arg1))

/-- The region finds e in the array its first window reads, -/
theorem V_e (c : Dev nD) : (V m c main_v5 : S16384x1.Idx → EReal) = eCol m c := by
  show StableHlo.after hostOps0 (fun b => m (c, b)) (Proc.devRef .tc main_v5) = _
  after_results
  rfl

/-- the same values laid out as a row in the array its second window reads, -/
theorem V_erow (c : Dev nD) (j : Fin 16384) :
    (V m c main_v7 : S1x16384.Idx → EReal) (ix2 (0 : Fin 1) j) = eCol m c (ix2 j (0 : Fin 1)) := by
  have e : (V m c main_v7 : S1x16384.Idx → EReal)
      = shapeCast S1x16384 (shapeCast S16384 (eCol m c) shapeCasts_S16384x1_S16384) shapeCasts_S16384_S1x16384 := by
    show StableHlo.after hostOps0 (fun b => m (c, b)) (Proc.devRef .tc main_v7) = _
    after_results
    rfl
  rw [e]
  refine (shapeCast_apply _ shapeCasts_S16384_S1x16384 (ix2 (0 : Fin 1) j) (ix1 j) (by
    rewrite [Shape.rowMajor_val_two, Shape.rowMajor_val_one]; show j.val = 0 * 16384 + j.val; omega)).trans ?_
  exact shapeCast_apply _ shapeCasts_S16384x1_S16384 (ix1 j) (ix2 j (0 : Fin 1)) (by
    rewrite [Shape.rowMajor_val_two, Shape.rowMajor_val_one]; show j.val * 1 + 0 = j.val; omega)

/-- and the weights as a column in the array its third window reads. -/
theorem V_w (c : Dev nD) (i : Fin 16384) :
    (V m c main_v8 : S16384x1.Idx → EReal) (ix2 i (0 : Fin 1)) = m ((c : Thread nD τ).loc main_arg2) (ix1 i) := by
  have e : (V m c main_v8 : S16384x1.Idx → EReal)
      = shapeCast S16384x1 (m ((c : Thread nD τ).loc main_arg2)) shapeCasts_S16384_S16384x1 := by
    show StableHlo.after hostOps0 (fun b => m (c, b)) (Proc.devRef .tc main_v8) = _
    after_results
    rfl
  rw [e]
  exact shapeCast_apply _ shapeCasts_S16384_S16384x1 (ix2 i (0 : Fin 1)) (ix1 i) (by
    rewrite [Shape.rowMajor_val_two, Shape.rowMajor_val_one]; show i.val = i.val * 1 + 0; omega)

/-- The row block and the column block of grid point t. -/
def rowBlk (t : Fin cfg0.N) : Fin 16 := ⟨t.val / 8, by have hN : cfg0.N = 128 := N_0; have := t.isLt; omega⟩
def colBlk (t : Fin cfg0.N) : Fin 8 := ⟨t.val % 8, Nat.mod_lt _ (by decide)⟩

/-- Column c of column block J, as a position in the whole array. -/
def colAt (J : Fin 8) (q : Fin 2048) : Fin 16384 := ⟨2048 * J.val + q.val, by omega⟩

/-- The windows' block numbers at point t, decided over the grid. -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- Row p of the point's block of e is e at row 1024·I + p. -/
theorem blk_e (c : Dev nD) (t : Fin cfg0.N) (p : Fin 1024) :
    (iblk m c 0 t : Vec Ideal S1024x1 .f32) (ix2 p (0 : Fin 1)) = eCol m c (ix2 (rowOf (rowBlk t) p) (0 : Fin 1)) := by
  unfold iblk
  rw [View.read_apply]
  show (V m c main_v5 : S16384x1.Idx → EReal) _ = _
  rw [show (V m c main_v5 : S16384x1.Idx → EReal) = eCol m c from V_e m c]
  refine congrArg (eCol m c) (funext fun a => Fin.ext ?_)
  match a with
  | ⟨0, _⟩ => show win0_0.index t 0 * 1024 + 1 * p.val = 1024 * (t.val / 8) + p.val; rw [(idx0 t).1]; omega
  | ⟨1, _⟩ => show win0_0.index t 1 * 1 + 1 * 0 = 0; rw [(idx0 t).2]

/-- Column q of the point's block of the row copy is e at row 2048·J + q. -/
theorem blk_erow (c : Dev nD) (t : Fin cfg0.N) (q : Fin 2048) :
    (iblk m c 1 t : Vec Ideal S1x2048 .f32) (ix2 (0 : Fin 1) q) = eCol m c (ix2 (colAt (colBlk t) q) (0 : Fin 1)) := by
  unfold iblk
  rw [View.read_apply]
  show (V m c main_v7 : S1x16384.Idx → EReal) _ = _
  refine Eq.trans (congrArg (V m c main_v7 : S1x16384.Idx → EReal) (funext fun a => Fin.ext ?_)) (V_erow m c (colAt (colBlk t) q))
  match a with
  | ⟨0, _⟩ => show win0_1.index t 0 * 1 + 1 * 0 = 0; rw [(idx1 t).1]
  | ⟨1, _⟩ => show win0_1.index t 1 * 2048 + 1 * q.val = 2048 * (t.val % 8) + q.val; rw [(idx1 t).2]; omega

/-- Row p of the point's block of the weights is the weight of row 1024·I + p. -/
theorem blk_w (c : Dev nD) (t : Fin cfg0.N) (p : Fin 1024) :
    (iblk m c 2 t : Vec Ideal S1024x1 .f32) (ix2 p (0 : Fin 1)) = m ((c : Thread nD τ).loc main_arg2) (ix1 (rowOf (rowBlk t) p)) := by
  unfold iblk
  rw [View.read_apply]
  show (V m c main_v8 : S16384x1.Idx → EReal) _ = _
  refine Eq.trans (congrArg (V m c main_v8 : S16384x1.Idx → EReal) (funext fun a => Fin.ext ?_)) (V_w m c (rowOf (rowBlk t) p))
  match a with
  | ⟨0, _⟩ => show win0_2.index t 0 * 1024 + 1 * p.val = 1024 * (t.val / 8) + p.val; rw [(idx2 t).1]; omega
  | ⟨1, _⟩ => show win0_2.index t 1 * 1 + 1 * 0 = 0; rw [(idx2 t).2]

end Cert.KernelIdeal.KValue

end
-- ==== Proof.KIdeal.lean ====
/-
  The body's arithmetic read at an index, on extended reals.

  A chunk of 512 columns contributes to row p the sum over its columns q of max (column q − row p) 0.
  The four chunks of a block of 2048 columns are added in order starting from zero, so after them
  row p holds Σ_k Σ_q max (column (512·k + q) − row p) 0. The point's contribution is
  Σ_p (row sum p) · (weight p), added to the carried scalar, which starts from zero; the output is
  the carried scalar recast to the output's shape.
-/
import proofs.«169645_j7799660609714_2_alg».proof.Proof.KPieces
import proofs.«169645_j7799660609714_2_alg».proof.Proof.Spec
import Idealize.ShloMosaic.Lib.ValueIdx
import Idealize.ShloMosaic.Lib.ValueLayout
import Idealize.ShloMosaic.PureOps.Ideal.Laws
import Idealize.ShloMosaic.Lib.Pipeline.Value

noncomputable section

namespace Cert.KernelIdeal.KValue

open Cert.KernelIdeal Cert.KernelIdeal.Gen Cert.RankLoss Idealize.ShloMosaic Idealize.ShloMosaic.ValueIdx
open scoped BigOperators

/-- The column block is walked in four chunks. -/
theorem trips_eq : k0_t1_loop.trips = 4 := by decide

/-- Column 512·k + q of a block of 2048 columns. -/
def colIn (k : Fin 4) (q : Fin 512) : Fin 2048 := ⟨512 * k.val + q.val, by omega⟩

/-- Chunk k at column q is the block at column 512·k + q. -/
theorem chunk_apply (x1 : Vec Ideal S1x2048 .f32) (k : Fin k0_t1_loop.trips) (q : Fin 512) :
    chunk x1 k (ix2 (0 : Fin 1) q) = x1 (ix2 (0 : Fin 1) (colIn ⟨k.val, by have := trips_eq; omega⟩ q)) := by
  unfold chunk
  show x1 ((Rect.unit (s := S1x2048) (k0_off1 k) S1x512.size (k0_off1_inb k)).idx (ix2 (0 : Fin 1) q)) = _
  refine congrArg x1 (funext fun a => Fin.ext ?_)
  match a with
  | ⟨0, _⟩ =>
    show k0_off1 k 0 + 1 * 0 = 0
    rw [k0_off1_eq]; rfl
  | ⟨1, _⟩ =>
    show k0_off1 k 1 + 1 * q.val = 512 * k.val + q.val
    rw [k0_off1_eq, Nat.one_mul]; rfl

/-! ### Layout readings for a column -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the columns of a 1024 × 512 array, read at row p. -/
theorem rowReduce_apply (src : FVec Ideal S1024x512 .f32) (p : Fin 1024) :
    multiReduction .add [1] S1024 src 0x00000000#32 reduces_S1024x512_S1024 (.inl rfl) rfl (ix1 p)
      = ∑ q : Fin 512, src (ix2 p q) := by
  refine (Ideal.multiReduction_add_single src 0x00000000#32 reduces_S1024x512_S1024 (.inl rfl) rfl (ix1 p)).trans ?_
  refine Finset.sum_congr rfl (fun q _ => congrArg src ?_)
  funext c
  apply Fin.ext
  match c with
  | ⟨0, _⟩ => rfl
  | ⟨1, _⟩ => rfl

/-- One chunk's contribution to row p: the carried value plus the sum over the chunk's columns q of
    max (column q − row p) 0. -/
theorem pay3_apply (v3 : Vec Ideal S1024x1 .f32) (acc : FVec Ideal S1024x1 .f32) (ck : Vec Ideal S1x512 .f32) (p : Fin 1024) :
    k0_pay3 v3 acc ck (ix2 p (0 : Fin 1))
      = acc (ix2 p (0 : Fin 1)) + ∑ q : Fin 512, hinge (v3 (ix2 p (0 : Fin 1))) (ck (ix2 (0 : Fin 1) q)) := by
  unfold k0_pay3
  dsimp only
  rw [addf_apply]
  congr 1
  refine (shapeCast_a_a1_apply _ shapeCasts_S1024_S1024x1 p (0 : Fin 1)).trans ?_
  refine (rowReduce_apply _ p).trans ?_
  refine Finset.sum_congr rfl (fun q _ => ?_)
  rw [maximumf_apply, subf_apply, broadcast_apply]
  unfold hinge
  have e1 : broadcastTo S1024x512 (shapeCast S1x512 ck shapeCasts_S1x512_S1x512) broadcasts_S1x512_S1024x512 (ix2 p q)
      = ck (ix2 (0 : Fin 1) q) :=
    (broadcastTo_1b_ab_apply _ broadcasts_S1x512_S1024x512 p q).trans (congrFun (shapeCast_self ck _) _)
  have e2 : broadcastTo S1024x512 (shapeCast S1024x1 v3 shapeCasts_S1024x1_S1024x1) broadcasts_S1024x1_S1024x512 (ix2 p q)
      = v3 (ix2 p (0 : Fin 1)) :=
    (broadcastTo_a1_ab_apply _ broadcasts_S1024x1_S1024x512 p q).trans (congrFun (shapeCast_self v3 _) _)
  exact congrArg₂ max (congrArg₂ (fun x y : EReal => x - y) e1 e2) Ideal.ofBits_zero_f32

/-! ### The four chunks added up from zero -/

/-- The carried column starts from zero. -/
theorem pay2_apply (p : Fin 1024) : k0_pay2 (F := Ideal) (ix2 p (0 : Fin 1)) = 0 := by
  unfold k0_pay2
  exact Ideal.ofBits_zero_f32

/-- One step of the recursion, while chunks remain. -/
theorem rowSums_succ (v3 : Vec Ideal S1024x1 .f32) (x1 : Vec Ideal S1x2048 .f32) (n : ℕ) (h : n < k0_t1_loop.trips) :
    rowSums v3 x1 (n + 1) = k0_pay3 v3 (rowSums v3 x1 n) (chunk x1 ⟨n, h⟩) := by
  rw [rowSums, dif_pos h]

/-- One step read at row p: chunk n adds Σ_q max (column (512·n + q) − row p) 0. -/
theorem rowSums_succ_apply (x0 : Vec Ideal S1024x1 .f32) (x1 : Vec Ideal S1x2048 .f32) (n : ℕ) (h : n < 4) (p : Fin 1024) :
    rowSums x0 x1 (n + 1) (ix2 p (0 : Fin 1))
      = rowSums x0 x1 n (ix2 p (0 : Fin 1))
        + ∑ q : Fin 512, hinge (x0 (ix2 p (0 : Fin 1))) (x1 (ix2 (0 : Fin 1) (colIn ⟨n, h⟩ q))) := by
  have h' : n < k0_t1_loop.trips := by rw [trips_eq]; exact h
  rw [rowSums_succ x0 x1 n h', pay3_apply]
  congr 1
  refine Finset.sum_congr rfl (fun q _ => ?_)
  rw [chunk_apply]

/-- After the four chunks, row p holds Σ_k Σ_q max (column (512·k + q) − row p) 0. -/
theorem rowSums_apply (x0 : Vec Ideal S1024x1 .f32) (x1 : Vec Ideal S1x2048 .f32) (p : Fin 1024) :
    rowSums x0 x1 k0_t1_loop.trips (ix2 p (0 : Fin 1))
      = ∑ k : Fin 4, ∑ q : Fin 512, hinge (x0 (ix2 p (0 : Fin 1))) (x1 (ix2 (0 : Fin 1) (colIn k q))) := by
  rw [trips_eq, Fin.sum_univ_four]
  refine (rowSums_succ_apply x0 x1 3 (by omega) p).trans (congrArg₂ (fun a b : EReal => a + b) ?_ rfl)
  refine (rowSums_succ_apply x0 x1 2 (by omega) p).trans (congrArg₂ (fun a b : EReal => a + b) ?_ rfl)
  refine (rowSums_succ_apply x0 x1 1 (by omega) p).trans (congrArg₂ (fun a b : EReal => a + b) ?_ rfl)
  refine (rowSums_succ_apply x0 x1 0 (by omega) p).trans ?_
  have hz : rowSums x0 x1 0 (ix2 p (0 : Fin 1)) = 0 := pay2_apply p
  rw [hz]
  exact zero_add _

/-! ### The point's contribution and the output -/

/-- The sum along the rows of a 1024 × 1 array. -/
theorem colReduce_apply (src : FVec Ideal S1024x1 .f32) :
    multiReduction .add [0] S1 src 0x00000000#32 reduces_S1024x1_S1 (.inl rfl) rfl (ix1 (0 : Fin 1))
      = ∑ p : Fin 1024, src (ix2 p (0 : Fin 1)) := by
  refine (Ideal.multiReduction_add_single src 0x00000000#32 reduces_S1024x1_S1 (.inl rfl) rfl (ix1 (0 : Fin 1))).trans ?_
  refine Finset.sum_congr rfl (fun p _ => congrArg src ?_)
  funext c
  apply Fin.ext
  match c with
  | ⟨0, _⟩ => rfl
  | ⟨1, _⟩ => rfl

/-- The point's contribution: the carried scalar plus Σ_p (row sum p) · (weight p). -/
theorem pay4_apply (x2 : Vec Ideal S1024x1 .f32) (R : FVec Ideal S1024x1 .f32) (xs : Vec Ideal S1x1 .f32) :
    k0_pay4 x2 R xs (ix2 (0 : Fin 1) (0 : Fin 1))
      = xs (ix2 (0 : Fin 1) (0 : Fin 1)) + ∑ p : Fin 1024, R (ix2 p (0 : Fin 1)) * x2 (ix2 p (0 : Fin 1)) := by
  unfold k0_pay4
  dsimp only
  refine (congrFun (shapeCast_self _ shapeCasts_S1x1_S1x1) _).trans ?_
  rw [addf_apply]
  congr 1
  refine (shapeCast_a_1a_apply _ shapeCasts_S1_S1x1 (0 : Fin 1) (0 : Fin 1)).trans ?_
  refine (colReduce_apply _).trans ?_
  refine Finset.sum_congr rfl (fun p _ => ?_)
  rw [mulf_apply]
  exact congrArg (fun y : EReal => R (ix2 p (0 : Fin 1)) * y) (congrFun (shapeCast_self x2 shapeCasts_S1024x1_S1024x1) _)

/-- The output slot holds the carried scalar, recast. -/
theorem pay5_apply (y : Vec Ideal S1x1 .f32) :
    k0_pay5 y (ix3 (0 : Fin 1) (0 : Fin 1) (0 : Fin 1)) = y (ix2 (0 : Fin 1) (0 : Fin 1)) := by
  unfold k0_pay5
  exact shapeCast_ab_1ab_apply y shapeCasts_S1x1_S1x1x1 (0 : Fin 1) (0 : Fin 1) (0 : Fin 1)

/-- The carried scalar starts from zero. -/
theorem pay1_apply : k0_pay1 (F := Ideal) (ix2 (0 : Fin 1) (0 : Fin 1)) = 0 := by
  unfold k0_pay1
  refine (congrFun (shapeCast_self _ shapeCasts_S1x1_S1x1) _).trans ?_
  exact Ideal.ofBits_zero_f32

end Cert.KernelIdeal.KValue

end
-- ==== Proof.KPoints.lean ====
/-
  The carried scalar and the output slot, in closed form.

  Point t = 8·I + J contributes  c(I, J) = Σ_p (Σ_k Σ_q max (e(2048J + 512k + q) − e(1024I + p)) 0) · w(1024I + p).
  After point 8·I + j the carried scalar is c(I, 0) + … + c(I, j), by induction on j; the last point
  of the row block, j = 7, writes that sum of all eight into output slot I.
-/
import proofs.«169645_j7799660609714_2_alg».proof.Proof.Gen.KernelIdeal.Frame
import proofs.«169645_j7799660609714_2_alg».proof.Proof.KCarry
import proofs.«169645_j7799660609714_2_alg».proof.Proof.KBlocks
import proofs.«169645_j7799660609714_2_alg».proof.Proof.KIdeal
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

open Cert.RankLoss Idealize.ShloMosaic.ValueIdx
open scoped BigOperators

variable (m : (ℓ : Loc nD τ sig) → Buf (Elt Ideal) ℓ)

/-- e and the weights as functions of the position. -/
def eF (c : Dev nD) : Fin 16384 → EReal := eFlat (eCol m c)
def wF (c : Dev nD) : Fin 16384 → EReal := vFlat (m ((c : Thread nD τ).loc main_arg2))

/-- The contribution of row block I against column block J. -/
def contrib (e w : Fin 16384 → EReal) (I : Fin 16) (J : Fin 8) : EReal :=
  ∑ p : Fin 1024, (∑ k : Fin 4, ∑ q : Fin 512, hinge (e (rowOf I p)) (e (colOf J k q))) * w (rowOf I p)

theorem slot_eq (e w : Fin 16384 → EReal) (I : Fin 16) : slot e w I = ∑ J : Fin 8, contrib e w I J := rfl

theorem colAt_colIn (J : Fin 8) (k : Fin 4) (q : Fin 512) : colAt J (colIn k q) = colOf J k q :=
  Fin.ext (by simp only [colAt, colIn, colOf]; omega)

/-- A point's sum over rows of row sum times weight is its contribution. -/
theorem point_term (c : Dev nD) (t : Fin cfg0.N) :
    ∑ p : Fin 1024, (rs m c t) (ix2 p (0 : Fin 1)) * (iblk m c 2 t : Vec Ideal S1024x1 .f32) (ix2 p (0 : Fin 1))
      = contrib (eF m c) (wF m c) (rowBlk t) (colBlk t) := by
  unfold contrib
  refine Finset.sum_congr rfl fun p _ => ?_
  have h1 : (rs m c t) (ix2 p (0 : Fin 1))
      = ∑ k : Fin 4, ∑ q : Fin 512, hinge ((iblk m c 0 t : Vec Ideal S1024x1 .f32) (ix2 p (0 : Fin 1)))
          ((iblk m c 1 t : Vec Ideal S1x2048 .f32) (ix2 (0 : Fin 1) (colIn k q))) :=
    rowSums_apply (iblk m c 0 t) (iblk m c 1 t) p
  rw [h1, blk_w m c t p]
  refine congrArg₂ (· * ·) (Finset.sum_congr rfl fun k _ => Finset.sum_congr rfl fun q _ => ?_) rfl
  rw [blk_e m c t p, blk_erow m c t (colIn k q), colAt_colIn]
  rfl

theorem carry_first (c : Dev nD) (t : Fin cfg0.N) (h0 : t.val % 8 = 0) :
    (outsAt0 m c t.val t.isLt).2 (ix2 (0 : Fin 1) (0 : Fin 1)) = 0 + contrib (eF m c) (wF m c) (rowBlk t) (colBlk t) := by
  have h1 : ¬t.val % 8 = 7 := by omega
  rw [carry_A m c t h0 h1]
  refine (pay4_apply (iblk m c 2 t) (rs m c t) (k0_pay1 (F := Ideal))).trans ?_
  rw [pay1_apply, point_term]

theorem carry_next (c : Dev nD) (t : Fin cfg0.N) (h0 : ¬t.val % 8 = 0) :
    (outsAt0 m c t.val t.isLt).2 (ix2 (0 : Fin 1) (0 : Fin 1))
      = (prev m c t) (ix2 (0 : Fin 1) (0 : Fin 1)) + contrib (eF m c) (wF m c) (rowBlk t) (colBlk t) := by
  by_cases h1 : t.val % 8 = 7
  · rw [carry_C m c t h0 h1]
    refine (pay4_apply (iblk m c 2 t) (rs m c t) (prev m c t)).trans ?_
    rw [point_term]
  · rw [carry_B m c t h0 h1]
    refine (pay4_apply (iblk m c 2 t) (rs m c t) (prev m c t)).trans ?_
    rw [point_term]

theorem out_last (c : Dev nD) (t : Fin cfg0.N) (h0 : ¬t.val % 8 = 0) (h1 : t.val % 8 = 7) :
    (outsAt0 m c t.val t.isLt).1 (ix3 (0 : Fin 1) (0 : Fin 1) (0 : Fin 1))
      = (prev m c t) (ix2 (0 : Fin 1) (0 : Fin 1)) + contrib (eF m c) (wF m c) (rowBlk t) (colBlk t) := by
  rw [outp_C m c t h0 h1]
  refine (pay5_apply _).trans ((pay4_apply (iblk m c 2 t) (rs m c t) (prev m c t)).trans ?_)
  rw [point_term]

theorem outs_congr (c : Dev nD) {n n' : ℕ} (e : n = n') (h : n < cfg0.N) (h' : n' < cfg0.N) :
    outsAt0 m c n h = outsAt0 m c n' h' := by subst e; rfl

theorem blk_of (I : Fin 16) (j : ℕ) (hj : j < 8) (h : 8 * I.val + j < cfg0.N) :
    rowBlk ⟨8 * I.val + j, h⟩ = I ∧ colBlk ⟨8 * I.val + j, h⟩ = ⟨j, hj⟩ :=
  ⟨Fin.ext (by simp only [rowBlk]; omega), Fin.ext (by simp only [colBlk]; omega)⟩

/-- The contributions of row block I, as a function of the column block's number. -/
def cN (e w : Fin 16384 → EReal) (I : Fin 16) (J : ℕ) : EReal := if hJ : J < 8 then contrib e w I ⟨J, hJ⟩ else 0

/-- After point 8·I + j the carried scalar is the sum of the first j + 1 contributions of row block I. -/
theorem carry_sum (c : Dev nD) (I : Fin 16) : ∀ (j : ℕ) (hj : j < 8) (h : 8 * I.val + j < cfg0.N),
    (outsAt0 m c (8 * I.val + j) h).2 (ix2 (0 : Fin 1) (0 : Fin 1)) = ∑ J ∈ Finset.range (j + 1), cN (eF m c) (wF m c) I J
  | 0, hj, h => by
    have e := carry_first m c ⟨8 * I.val + 0, h⟩ (by show (8 * I.val + 0) % 8 = 0; omega)
    rw [(blk_of I 0 hj h).1, (blk_of I 0 hj h).2, zero_add] at e
    rw [Finset.sum_range_one, cN, dif_pos hj]
    exact e
  | j + 1, hj, h => by
    have hprev : 8 * I.val + j < cfg0.N := by omega
    have e := carry_next m c ⟨8 * I.val + (j + 1), h⟩ (by show ¬(8 * I.val + (j + 1)) % 8 = 0; omega)
    rw [(blk_of I (j + 1) hj h).1, (blk_of I (j + 1) hj h).2] at e
    have ep : prev m c ⟨8 * I.val + (j + 1), h⟩ = (outsAt0 m c (8 * I.val + j) hprev).2 := by
      unfold prev
      exact congrArg Prod.snd (outs_congr m c (by show 8 * I.val + (j + 1) - 1 = 8 * I.val + j; omega) _ _)
    rw [ep, carry_sum c I j (by omega) hprev] at e
    rw [Finset.sum_range_succ _ (j + 1), cN, dif_pos hj]
    exact e

/-- The last point of row block I writes the sum of its eight contributions: the slot's value. -/
theorem out_slot (c : Dev nD) (t : Fin cfg0.N) (h7 : t.val % 8 = 7) :
    (outsAt0 m c t.val t.isLt).1 (ix3 (0 : Fin 1) (0 : Fin 1) (0 : Fin 1)) = slot (eF m c) (wF m c) (rowBlk t) := by
  have h0 : ¬t.val % 8 = 0 := by omega
  have hN : cfg0.N = 128 := N_0
  have hlt := t.isLt
  have ht : t.val = 8 * (rowBlk t).val + 7 := by simp only [rowBlk]; omega
  have h6 : 8 * (rowBlk t).val + 6 < cfg0.N := by omega
  have ep : prev m c t = (outsAt0 m c (8 * (rowBlk t).val + 6) h6).2 := by
    unfold prev
    exact congrArg Prod.snd (outs_congr m c (by omega) _ _)
  have hc : colBlk t = ⟨7, by decide⟩ := Fin.ext (by simp only [colBlk]; omega)
  have key : ∑ J : Fin 8, contrib (eF m c) (wF m c) (rowBlk t) J = ∑ J ∈ Finset.range 8, cN (eF m c) (wF m c) (rowBlk t) J := by
    rw [Finset.sum_range]
    exact Finset.sum_congr rfl fun J _ => by unfold cN; rw [dif_pos J.isLt]
  rw [out_last m c t h0 h7, ep, carry_sum m c (rowBlk t) 6 (by decide) h6, hc, slot_eq, key,
    Finset.sum_range_succ _ 7, cN, dif_pos (by decide : 7 < 8)]

end Cert.KernelIdeal.KValue

end
-- ==== Proof.KFinal.lean ====
/-
  The output array after the kernel, and its total.

  Output slot I is written once, by the last point of row block I, with that block's sum of
  contributions; the sixteen one-entry blocks fill the array, so the array ends as the function
  I ↦ slot I. The program then adds the slots up from zero: the blocked pairwise total.
-/
import proofs.«169645_j7799660609714_2_alg».proof.Proof.Gen.KernelIdeal.Frame
import proofs.«169645_j7799660609714_2_alg».proof.Proof.KPoints
import Idealize.ShloMosaic.PureOps.Ideal.Laws
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

open Cert.RankLoss Idealize.ShloMosaic.ValueIdx
open scoped BigOperators

variable (m : (ℓ : Loc nD τ sig) → Buf (Elt Ideal) ℓ)

/-- The output array: slot I at position (I, 0, 0). -/
def outArr (c : Dev nD) : FVec Ideal S16x1x1 .f32 :=
  fun i => slot (eF m c) (wF m c) ⟨(i 0).val, (i 0).isLt⟩

/-- What a flushing point writes back is its block of that array. -/
theorem flushed_eq (c : Dev nD) (t : Fin cfg0.N) (hf : (cfg0.win 3).flush t = true) :
    (dats m 0 c).flushed 3 t = ((cfg0.win 3).blk t).view.read (Elt Ideal) (outArr m c) := by
  have h7 : t.val % 8 = 7 := (flush0_3 t).mp hf
  show (cfg0.win 3).cut (grid0.coords t) ((dats m 0 c).after 3 t) = _
  rw [after0_3]
  funext j
  have hj0 : (j 0).val < 1 := (j 0).isLt
  have hj1 : (j 1).val < 1 := (j 1).isLt
  have hj2 : (j 2).val < 1 := (j 2).isLt
  have hj : j = ix3 (0 : Fin 1) (0 : Fin 1) (0 : Fin 1) := by
    funext a
    match a with
    | ⟨0, _⟩ => exact Fin.ext (by show (j 0).val = 0; omega)
    | ⟨1, _⟩ => exact Fin.ext (by show (j 1).val = 0; omega)
    | ⟨2, _⟩ => exact Fin.ext (by show (j 2).val = 0; omega)
  show (outsAt0 m c t.val t.isLt).1 j = outArr m c (((cfg0.win 3).blk t).view.emb j)
  rw [hj, out_slot m c t h7]
  unfold outArr
  refine congrArg (slot (eF m c) (wF m c)) (Fin.ext ?_)
  show t.val / 8 = win0_3.index t 0 * 1 + 1 * 0
  rw [(idx3 t).1]
  omega

/-- An index of the array is in point t's block iff each coordinate is in the block's range. -/
theorem mem_blk (t : Fin cfg0.N) (i : S16x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v9).slice (win0_3.rect t)).set ↔ _
  rw [View.set_slice_whole, Rect.mem_set_unit]
  exact Iff.rfl

/-- The array after the kernel. -/
theorem final (c : Dev nD) : (dats m 0 c).arrAt 3 cfg0.N = outArr m c :=
  (dats m 0 c).arrAt_eq_of_cover 3 (outArr m c) (flushed_eq m c) fun i => by
    have hN : cfg0.N = 128 := N_0
    have hi0 : (i 0).val < 16 := (i 0).isLt
    have hi1 : (i 1).val < 1 := (i 1).isLt
    have hi2 : (i 2).val < 1 := (i 2).isLt
    have hT : 8 * (i 0).val + 7 < cfg0.N := by omega
    obtain ⟨e0, e1, e2⟩ := idx3 ⟨8 * (i 0).val + 7, hT⟩
    have e0' : win0_3.index ⟨8 * (i 0).val + 7, hT⟩ 0 = (8 * (i 0).val + 7) / 8 := e0
    refine ⟨⟨8 * (i 0).val + 7, hT⟩, (flush0_3 _).mpr (by show (8 * (i 0).val + 7) % 8 = 7; omega), ?_⟩
    rw [mem_blk]
    intro a
    match a with
    | ⟨0, _⟩ =>
      show win0_3.index ⟨8 * (i 0).val + 7, hT⟩ 0 * 1 ≤ (i 0).val ∧ (i 0).val < win0_3.index ⟨8 * (i 0).val + 7, hT⟩ 0 * 1 + 1
      rw [e0']; omega
    | ⟨1, _⟩ =>
      show win0_3.index ⟨8 * (i 0).val + 7, hT⟩ 1 * 1 ≤ (i 1).val ∧ (i 1).val < win0_3.index ⟨8 * (i 0).val + 7, hT⟩ 1 * 1 + 1
      rw [e1]; omega
    | ⟨2, _⟩ =>
      show win0_3.index ⟨8 * (i 0).val + 7, hT⟩ 2 * 1 ≤ (i 2).val ∧ (i 2).val < win0_3.index ⟨8 * (i 0).val + 7, hT⟩ 2 * 1 + 1
      rw [e2]; omega

/-- The slots, as positions of the array. -/
def slotEquiv : Fin 16 ≃ S16x1x1.Idx where
  toFun I := ix3 I (0 : Fin 1) (0 : Fin 1)
  invFun j := ⟨(j 0).val, (j 0).isLt⟩
  left_inv _ := rfl
  right_inv j := by
    funext a
    match a with
    | ⟨0, _⟩ => rfl
    | ⟨1, _⟩ => exact Fin.ext (by have h : (j 1).val < 1 := (j 1).isLt; show 0 = (j 1).val; omega)
    | ⟨2, _⟩ => exact Fin.ext (by have h : (j 2).val < 1 := (j 2).isLt; show 0 = (j 2).val; omega)

/-- All entries of the array add up to the blocked pairwise total. -/
theorem sum_outArr (c : Dev nD) : ∑ j : S16x1x1.Idx, outArr m c j = blockedTotal (eF m c) (wF m c) := by
  unfold blockedTotal
  rw [← Equiv.sum_comp slotEquiv (outArr m c)]
  rfl

/-- The program's sum of the output array from the zero word. -/
theorem loss_eq (c : Dev nD) :
    Host.reduceAdd (F := Ideal) (outArr m c) (constant (F := Ideal) S_ .f32 0x00000000#32) reducesTo_S16x1x1_S_d0_1_2 h_S_
      = lossOf (blockedTotal (eF m c) (wF m c)) := by
  funext i
  simp only [Host.reduceAdd, Ideal.hostReduceAdd_def]
  refine (Ideal.hostReduceAdd_total reducesTo_S16x1x1_S_d0_1_2 (fun b => b.elim0) (outArr m c) _ i).trans ?_
  rw [sum_outArr]
  rfl

end Cert.KernelIdeal.KValue

end
-- ==== Proof.KTail.lean ====
/-
  What the kernel's program leaves in its result buffer once the output array is known.

  After the kernel, the program adds up the 16 output slots starting from zero, scales the sum by a
  constant, and adds the two penalty terms built from Σ e² and Σ log_h²: the same scalar tail the
  reference ends with (`tailOf`, never opened here), applied to the column e the program formed before
  the kernel, to log_h as given, and to the sum of the slots. The three arguments are not written.
-/
import proofs.«169645_j7799660609714_2_alg».proof.Proof.KBlocks

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.RankLoss

/-- From any contents W of the buffers, the operations after the kernel leave in the result buffer the shared
    tail of W's e, W's log_h and the sum from zero of W's 16 output slots. -/
theorem tail_after (W : Valuation τ sig (Elt Ideal)) :
    StableHlo.after (hostOps1 (F := Ideal)) W (Proc.devRef .tc main_v21)
      = tailOf reducesTo_S16384x1_S_d0_1 h_S_ (W (Proc.devRef .tc main_v5) : S16384x1.Idx → EReal)
          (W (Proc.devRef .tc main_arg0) : S16384x1.Idx → EReal)
          (Host.reduceAdd (F := Ideal) (W (Proc.devRef .tc main_v9) : S16x1x1.Idx → EReal)
            (constant (F := Ideal) S_ .f32 0x00000000#32) reducesTo_S16x1x1_S_d0_1_2 h_S_) := by
  after_results
  rfl

variable (m : (ℓ : Loc nD τ sig) → Buf (Elt Ideal) ℓ)

/-- After the kernel the program adds up the 16 output slots from zero and feeds the shared tail with that sum,
    the column e and log_h. -/
theorem tail_value (c : Dev nD) (OUT : FVec Ideal S16x1x1 .f32) (hfinal : (dats m 0 c).arrAt 3 cfg0.N = OUT) :
    Pipeline.afterTail₀ cfgs (dats m) 0 (V0 m) [hostOps1] c main_v21
      = tailOf reducesTo_S16384x1_S_d0_1 h_S_ (eCol m c) (m ((c.tc : Thread nD τ).loc main_arg0))
          (Host.reduceAdd (F := Ideal) OUT (constant (F := Ideal) S_ .f32 0x00000000#32) reducesTo_S16x1x1_S_d0_1_2 h_S_) := by
  have h5 : (Pipeline.withArrays (cfgs 0).spec c (V0 m c) (fun w => (dats m 0 c).arrAt w (cfgs 0).N)
      (Proc.devRef .tc main_v5) : S16384x1.Idx → EReal) = eCol m c :=
    (Pipeline.withArrays_arr spec0 launch0.win.arr_inj c _ _ 0).trans
      (((dats m 0 c).arrAt_in 0 rfl _).trans ((A_eq m c 0).trans (V_e m c)))
  have h0 : (Pipeline.withArrays (cfgs 0).spec c (V0 m c) (fun w => (dats m 0 c).arrAt w (cfgs 0).N)
      (Proc.devRef .tc main_arg0) : S16384x1.Idx → EReal) = m ((c.tc : Thread nD τ).loc main_arg0) :=
    (Pipeline.withArrays_of_ne _ c (V0 m c) _ main_arg0 (by exact (by decide : ∀ w, Pipeline.arrRef spec0 w ≠ main_arg0))).trans
      (V_main_arg0 m c)
  have h9 : (Pipeline.withArrays (cfgs 0).spec c (V0 m c) (fun w => (dats m 0 c).arrAt w (cfgs 0).N)
      (Proc.devRef .tc main_v9) : S16x1x1.Idx → EReal) = OUT :=
    (Pipeline.withArrays_arr spec0 launch0.win.arr_inj c _ _ 3).trans hfinal
  unfold Pipeline.afterTail₀
  show StableHlo.after hostOps1 _ (Proc.devRef .tc main_v21) = _
  rw [tail_after, h5, h0, h9]

/-- The kernel program's run: the result buffer holds the shared tail of e, log_h and the sum from zero of the
    16 output slots; the three arguments are left as they were. -/
theorem run_value (ρ : Dev nD → PrngReg)
    (OUT : Dev nD → FVec Ideal S16x1x1 .f32) (hfinal : ∀ c, (dats m 0 c).arrAt 3 cfg0.N = OUT c) :
    θ_run defs (onTc (τ := τ) (main (F := Ideal))) ⟨m, fun _ => 0, ρ⟩ (fun r => ∀ c : Dev nD,
      r.2.mem ((c.tc : Thread nD τ).loc main_v21)
          = tailOf reducesTo_S16384x1_S_d0_1 h_S_ (eCol m c) (m ((c.tc : Thread nD τ).loc main_arg0))
              (Host.reduceAdd (F := Ideal) (OUT c) (constant (F := Ideal) S_ .f32 0x00000000#32) reducesTo_S16x1x1_S_d0_1_2 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v21 (Pipeline.mem_restRefs_of main_v21 (by decide) (by decide))).trans (tail_value m c (OUT c) (hfinal c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.lean ====
/-
  A pairwise rank loss over n = 16384 samples, computed two ways.

  With e_i = −(log_h_i − log (durations_i + ε)) and weights v_i = events_i, both programs return

      (Σ_i Σ_j t(e_i, e_j) · v_i) · 2⁻²⁸ + 0.001 · (Σ_i e_i²) / n + 0.001 · (Σ_i log_h_i²) / n.

  The kernel takes t(x, y) = max (y − x) 0 and forms the double sum in blocks: a 16 × 8 grid of
  1024 rows by 2048 columns, each column block in four chunks of 512, a row's chunk sums added up
  first, then multiplied by the row's weight, summed over the rows, accumulated over the eight
  column blocks into one output slot per row block; the sixteen slots are added afterwards.
  The reference takes t(x, y) = |d · [d ≤ 0]| with d = x − y and sums all n² entries at once.

  On real numbers the two terms are the same function, and the blocked sum is the plain double sum
  re-indexed (i = 1024·I + p, j = 2048·J + 512·k + q) with the weight distributed over the inner
  sum. Distributing needs the entries to be real, and so does the agreement of the two terms (at
  e_i = e_j = −∞ they differ), so the precondition is used: every input is finite and
  durations_i + ε > 0, which makes every e_i and v_i a real. The chain that builds e and the scalar
  tail are the same operations in both programs and are carried along unopened.

  The three frames are the generated ones (the reference's is its run with the result dropped);
  nothing was rewritten when the kernel was idealized.
-/
import proofs.«169645_j7799660609714_2_alg».proof.Defs
import proofs.«169645_j7799660609714_2_alg».proof.Proof.Gen.Kernel
import proofs.«169645_j7799660609714_2_alg».proof.Proof.Gen.Kernel.Skeleton
import proofs.«169645_j7799660609714_2_alg».proof.Proof.Gen.Kernel.Loops
import proofs.«169645_j7799660609714_2_alg».proof.Proof.Gen.Kernel.Launch
import proofs.«169645_j7799660609714_2_alg».proof.Proof.Gen.Kernel.Points
import proofs.«169645_j7799660609714_2_alg».proof.Proof.Gen.Kernel.Frame
import proofs.«169645_j7799660609714_2_alg».proof.Proof.Gen.KernelIdeal
import proofs.«169645_j7799660609714_2_alg».proof.Proof.Gen.KernelIdeal.Skeleton
import proofs.«169645_j7799660609714_2_alg».proof.Proof.Gen.KernelIdeal.Loops
import proofs.«169645_j7799660609714_2_alg».proof.Proof.Gen.KernelIdeal.Launch
import proofs.«169645_j7799660609714_2_alg».proof.Proof.Gen.KernelIdeal.Points
import proofs.«169645_j7799660609714_2_alg».proof.Proof.Gen.KernelIdeal.Frame
import proofs.«169645_j7799660609714_2_alg».proof.Proof.Gen.ReferenceIdeal
import proofs.«169645_j7799660609714_2_alg».proof.Proof.Gen.ReferenceIdeal.Run
import proofs.«169645_j7799660609714_2_alg».proof.Proof.Gen.ReferenceIdeal.Read
import proofs.«169645_j7799660609714_2_alg».proof.Proof.Gen.Pre_finite_inputs
import proofs.«169645_j7799660609714_2_alg».proof.Proof.PairAlgebra
import proofs.«169645_j7799660609714_2_alg».proof.Proof.RefValue
import proofs.«169645_j7799660609714_2_alg».proof.Proof.PreReal
import proofs.«169645_j7799660609714_2_alg».proof.Proof.KFinal
import proofs.«169645_j7799660609714_2_alg».proof.Proof.KTail
import Idealize.ShloMosaic.Adequacy
import Idealize.ShloMosaic.Init

noncomputable section

namespace Cert.Proof

open Idealize.ShloMosaic Idealize.ShloMosaic.TcCoe Idealize.SL.Sem
open Cert.RankLoss

/-- On real entries the blocked total is the plain pairwise total. -/
theorem blocked_eq_pair_of_real (e v : Fin 16384 → EReal) (hE : ∀ i, ∃ r : ℝ, e i = (r : EReal))
    (hV : ∀ i, ∃ r : ℝ, v i = (r : EReal)) : blockedTotal e v = pairTotal e v := by
  choose E hE using hE
  choose V hV using hV
  obtain rfl : e = fun i => ((E i : ℝ) : EReal) := funext hE
  obtain rfl : v = fun i => ((V i : ℝ) : EReal) := funext hV
  exact blockedTotal_eq_pairTotal E V

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the shared tail of the same total: the kernel's blocked one, which on the
    real entries the precondition gives is the reference's plain one. -/
theorem algebraic : Cert.algebraic_KernelIdeal_ReferenceIdeal := by
  intro m ρ m' ρ' hpre hagree
  refine ⟨fun c => tailOf Cert.KernelIdeal.Gen.reducesTo_S16384x1_S_d0_1 Cert.KernelIdeal.Gen.h_S_
      (Cert.KernelIdeal.KValue.eCol m c) (m ((c.tc : Thread Cert.KernelIdeal.nD Cert.KernelIdeal.τ).loc Cert.KernelIdeal.main_arg0))
      (lossOf (blockedTotal (Cert.KernelIdeal.KValue.eF m c) (Cert.KernelIdeal.KValue.wF m c))), ?_, ?_⟩
  · refine (θ_run Cert.KernelIdeal.defs _ _).mono (fun r h c => ?_)
      (Cert.KernelIdeal.KValue.run_value m ρ (Cert.KernelIdeal.KValue.outArr m) (Cert.KernelIdeal.KValue.final m))
    obtain ⟨h1, h2⟩ := h c
    exact ⟨h1.trans (by rw [Cert.KernelIdeal.KValue.loss_eq]), h2⟩
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2]
    refine (Cert.ReferenceIdeal.Read.val_main_v30_eq _ _ _).trans ((Cert.RankLoss.Ref.ref_value _ _ _).trans ?_)
    obtain ⟨hE, hV⟩ := Cert.RankLoss.Pre.real_of_pre _ _ _ (hpre c)
      Cert.KernelIdeal.Gen.bcast_S16384_S16384x1_0 Cert.KernelIdeal.Gen.bcast_S_S16384x1
    have key : blockedTotal (Cert.KernelIdeal.KValue.eF m c) (Cert.KernelIdeal.KValue.wF m c)
        = pairTotal (Cert.KernelIdeal.KValue.eF m c) (Cert.KernelIdeal.KValue.wF m c) :=
      blocked_eq_pair_of_real _ _ hE hV
    beta_reduce
    rw [key]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
